-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : IVec S100000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S10000x128 : Shape := ⟨2, ![10000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩

abbrev nBuf : Space → Nat
  | .hbm => 94
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S_, .f32⟩
  | .hbm, ⟨83, _⟩ => ⟨S256x128, .f32⟩
  | .hbm, ⟨84, _⟩ => ⟨S100000x1, .i32⟩
  | .hbm, ⟨85, _⟩ => ⟨S256x128, .f32⟩
  | .hbm, ⟨86, _⟩ => ⟨S_, .f32⟩
  | .hbm, ⟨87, _⟩ => ⟨S100000, .f32⟩
  | .hbm, ⟨88, _⟩ => ⟨S_, .f32⟩
  | .hbm, ⟨89, _⟩ => ⟨S256, .f32⟩
  | .hbm, ⟨90, _⟩ => ⟨S100000x1, .i32⟩
  | .hbm, ⟨91, _⟩ => ⟨S256, .f32⟩
  | .hbm, ⟨92, _⟩ => ⟨S256x1, .f32⟩
  | .hbm, ⟨93, _⟩ => ⟨S256x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S256x128, .f32⟩
  | .local _ .vmem, ⟨7, _⟩ => ⟨S256x1, .f32⟩
  | .local _ .vmem, ⟨8, _⟩ => ⟨S256x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S256x1_S256x128 : S256x1.Broadcasts S256x128
  reduces_S256x128_S256 : S256x128.Reduces [1] S256
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S256x128.size a
  hwx1_0 : ∀ i : grid1.Coords, EltTy.bits .f32 = 32 ∨ (Rect.block (s := S256x128) S256x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S256x1.size a
  hwx1_1 : ∀ i : grid1.Coords, EltTy.bits .f32 = 32 ∨ (Rect.block (s := S256x1) S256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_v57) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v62) S256x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v67) S256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S256x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S256x128, .f32⟩
  | .hbm, ⟨89, _⟩ => ⟨S100000x1, .i32⟩
  | .hbm, ⟨90, _⟩ => ⟨S256x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S256, .f32⟩
  | .hbm, ⟨95, _⟩ => ⟨S100000x1, .i32⟩
  | .hbm, ⟨96, _⟩ => ⟨S256, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S256x1, .f32⟩
  | .hbm, ⟨101, _⟩ => ⟨S256x128, .f32⟩
  | .hbm, ⟨102, _⟩ => ⟨S256x128, .f32⟩
  | .hbm, ⟨103, _⟩ => ⟨S_, .f32⟩
  | .hbm, ⟨104, _⟩ => ⟨S256, .f32⟩
  | .hbm, ⟨105, _⟩ => ⟨S_, .f32⟩
  | .hbm, ⟨106, _⟩ => ⟨S256, .f32⟩
  | .hbm, ⟨107, _⟩ => ⟨S256, .f32⟩
  | .hbm, ⟨108, _⟩ => ⟨S256x1, .f32⟩
  | .hbm, ⟨109, _⟩ => ⟨S256x128, .f32⟩
  | .hbm, ⟨110, _⟩ => ⟨S256x128, .f32⟩
  | .hbm, ⟨111, _⟩ => ⟨S256x128, .f32⟩
  | .hbm, ⟨112, _⟩ => ⟨S_, .f32⟩
  | .hbm, ⟨113, _⟩ => ⟨S256, .f32⟩
  | .hbm, ⟨114, _⟩ => ⟨S256x1, .f32⟩
  | .hbm, ⟨115, _⟩ => ⟨S256x1, .f32⟩
  | .hbm, ⟨116, _⟩ => ⟨S256x128, .f32⟩
  | .hbm, ⟨117, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_16 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_call2_cst_0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_v6 : Ref sig .tc := ⟨.hbm, 111, rfl⟩
abbrev main_call2_cst_1 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_v75 : Ref sig .tc := ⟨.hbm, 117, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  reducesTo_S256x128_S256_d1 : S256x128.ReducesTo [1] S256
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.KernelRun.lean ====
/-
  The kernel program's run with its result NAMED. The program is two TensorCore regions among four stretches of host
  operations; the generated frame walks it segment by segment and ends with every unscoped buffer at the contents
  `Gen.W6 m ρ c` of the last boundary, but states only that the five argument arrays are as launched. Here the same walk is
  read once more at the result buffer: on every core the result array ends at `Gen.W6 m ρ c` of its reference, at any float
  instance. What that array holds is the business of the modules that follow.
-/
import proofs.«149216_j64768106823756_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the several-region launch theorem's implicit arguments are found by unifying its conclusion with this one, which takes
-- unfolding plain definitions in a metavariable's type
set_option backward.isDefEq.respectTransparency.types false in
/-- Every weakly fair execution of @main terminates, nothing faulting, with the result array at the last boundary's
    contents and the argument arrays as launched: the segments' run (`Gen.segs`, `Gen.main_run`) from the launch state,
    the last thread state read against the final memory at the result's reference and at each argument's. -/
theorem run_named : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Walk

end
-- ==== Proof.PoolArray.lean ====
/-
  The second region (the mean-pool divide and log-softmax) has ONE grid point, and each of its three windows' blocks is its
  whole array at offset zero. So what the region leaves in its result array is the body's one stored value, computed from
  the two input arrays exactly as the region finds them: `Gen.k1_pay1 counts sums`. Stated at any contents `V` of the
  TensorCore's buffers at the region's entry, at any float instance.
-/
import proofs.«149216_j64768106823756_1_alg».proof.Proof.Gen.KernelIdeal.Frame
import Idealize.ShloMosaic.Lib.Pipeline.Value

set_option maxRecDepth 16384

noncomputable section

namespace Cert.KernelIdeal.Pool

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zeros : (![0, 0] : Fin 2 → Nat) = fun _ => 0 := funext fun a => by fin_cases a <;> rfl

/-- The sums' window at the one point is the whole [256,128] array of per-graph sums. -/
theorem block_sums (c : Dev nD) : iblk1 V c 0 t1_0 = V c main_v62 := by
  unfold iblk1
  have hz' : (fun a => win1_0.index t1_0 a * main_v62.ty.shape.size a) = fun _ => 0 := funext fun a => by fin_cases a <;> decide
  exact Memref.read_access_unit_zero (Elt F) main_v62 hz' (fun a => by rw [congrFun hz' a]; simp) (V c main_v62)

/-- The counts' window at the one point is the whole [256,1] column of per-graph counts. -/
theorem block_counts (c : Dev nD) : iblk1 V c 1 t1_0 = V c main_v67 := by
  unfold iblk1
  have hz' : (fun a => win1_1.index t1_0 a * main_v67.ty.shape.size a) = fun _ => 0 := funext fun a => by fin_cases a <;> decide
  exact Memref.read_access_unit_zero (Elt F) main_v67 hz' (fun a => by rw [congrFun hz' a]; simp) (V c main_v67)

/-- What the one point writes back is (the whole-array block of) the body's stored value of the two entry arrays. -/
theorem flushed_result (c : Dev nD) (t : Fin cfg1.N) :
    (dat1 V c).flushed 2 t = ((cfg1.win 2).blk t).view.read (Elt F) (k1_pay1 (V c main_v67) (V c main_v62)) := by
  obtain rfl : t = t1_0 := fin_N1 t
  show (cfg1.win 2).cut (grid1.coords t1_0) ((dat1 V c).after 2 t1_0) = _
  rw [after1_2]
  unfold out1_2
  rw [View.canon_unit_zero zeros]
  simp only [View.ld_unit_zero (S := S256x128) zeros, View.ld_unit_zero (S := S256x1) zeros]
  rw [block_sums V c, block_counts V c]
  have hz' : (fun a => win1_2.index t1_0 a * main_v68.ty.shape.size a) = fun _ => 0 := funext fun a => by fin_cases a <;> decide
  exact (Memref.read_access_unit_zero (Elt F) main_v68 hz' (fun a => by rw [congrFun hz' a]; simp) _).symm

/-- The result array after the region: the body's stored value of the sums and the counts as the region found them
    (the one point's block covers the whole array). -/
theorem result_array (c : Dev nD) : (dat1 V c).arrAt 2 cfg1.N = k1_pay1 (V c main_v67) (V c main_v62) :=
  (dat1 V c).arrAt_eq_of_cover 2 (k1_pay1 (V c main_v67) (V c main_v62)) (fun t _ => flushed_result V c t) fun i =>
    ⟨t1_0, flush1_2 t1_0, by
      show i ∈ ((View.whole main_v68).slice (win1_2.rect t1_0)).set
      rw [View.set_slice_whole, Rect.mem_set_unit]
      intro a
      have h0 : (i 0 : Nat) < 256 := (i 0).isLt
      have h1 : (i 1 : Nat) < 128 := (i 1).isLt
      match a with
      | ⟨0, _⟩ => show win1_2.index t1_0 0 * win1_2.size 0 ≤ (i 0 : Nat) ∧ (i 0 : Nat) < win1_2.index t1_0 0 * win1_2.size 0 + win1_2.xsize (grid1.coords t1_0) 0
                  rw [show win1_2.index t1_0 0 * win1_2.size 0 = 0 from by decide +kernel, show win1_2.xsize (grid1.coords t1_0) 0 = 256 from by decide +kernel]; omega
      | ⟨1, _⟩ => show win1_2.index t1_0 1 * win1_2.size 1 ≤ (i 1 : Nat) ∧ (i 1 : Nat) < win1_2.index t1_0 1 * win1_2.size 1 + win1_2.xsize (grid1.coords t1_0) 1
                  rw [show win1_2.index t1_0 1 * win1_2.size 1 = 0 from by decide +kernel, show win1_2.xsize (grid1.coords t1_0) 1 = 128 from by decide +kernel]; omega⟩

end Cert.KernelIdeal.Pool

end
-- ==== Proof.PoolSpec.lean ====
/-
  The mean-pool divide and the row-wise log-softmax, as functions on the extended reals over the literal shapes
  [256,128] (per-graph sums), [256] (per-graph counts). Both programs compute

      pooled(g,q)  = sums(g,q) / max (count g) 1
      shifted(g,q) = pooled(g,q) − maxₖ pooled(g,k)            (the maximum folded from −∞, as both programs do)
      result(g,q)  = shifted(g,q) − log ∑ₖ exp shifted(g,k)

  with the SAME exact operations (the quotient `Ideal.div`, `Ideal.exp`, `Ideal.log`, the order's `max`, the extended reals'
  subtraction), so no law of arithmetic beyond the shape of the two folds is needed to join them.
-/
import Idealize.ShloMosaic.PureOps.Ideal
import Idealize.ShloMosaic.Lib.ValueIdx

noncomputable section

namespace Cert.PoolSpec

open Idealize.ShloMosaic Idealize.ShloMosaic.ValueIdx

/-- The per-graph sums' and the result's index type, the counts' index type. -/
abbrev Mat : Shape := ⟨2, ![256, 128]⟩
abbrev Col : Shape := ⟨1, ![256]⟩

/-- The word of 1.0 and the word of −∞, never evaluated: the same words stand on both sides. -/
abbrev one : EReal := Ideal.ofBits .f32 0x3F800000#32
abbrev negInf : EReal := Ideal.ofBits .f32 0xFF800000#32

/-- The mean pool's quotient: each graph's sum over its count, the count clamped below at one. -/
def pooled (sums : Mat.Idx → EReal) (cnt : Col.Idx → EReal) : Mat.Idx → EReal :=
  fun i => Ideal.div (sums i) (max (cnt (ix1 (n := 256) (i 0))) one)

/-- A row's maximum, folded from −∞ over the 128 columns. -/
def rowMax (X : Mat.Idx → EReal) : Fin 256 → EReal :=
  fun g => (Finset.univ : Finset (Fin 128)).fold max negInf fun k => X (ix2 (n0 := 256) (n1 := 128) g k)

/-- Each element less its row's maximum. -/
def shifted (X : Mat.Idx → EReal) : Mat.Idx → EReal := fun i => X i - rowMax X (i 0)

/-- The logarithm of a row's sum of exponentials. -/
def logSumExp (Y : Mat.Idx → EReal) : Fin 256 → EReal :=
  fun g => Ideal.log (∑ k : Fin 128, Ideal.exp (Y (ix2 (n0 := 256) (n1 := 128) g k)))

/-- The row-wise log-softmax in its shifted form. -/
def logSoftmax (X : Mat.Idx → EReal) : Mat.Idx → EReal := fun i => shifted X i - logSumExp (shifted X) (i 0)

end Cert.PoolSpec

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.PoolKernel.lean ====
/-
  The second region's body computes the pooled log-softmax of its two loaded arrays. Its keepdims reductions come as
  "reduce a row, stand the vector up as a column, broadcast the column over the row": read at `(g, q)` that is the row's
  reduction at `g`. The counts arrive as the [256,1] column the host made of the [256] vector.
-/
import proofs.«149216_j64768106823756_1_alg».proof.Proof.Gen.KernelIdeal.Skeleton
import proofs.«149216_j64768106823756_1_alg».proof.Proof.PoolSpec
import proofs.«149216_j64768106823756_1_alg».proof.Proof.LibColBroadcast
import proofs.«149216_j64768106823756_1_alg».proof.Proof.LibColumnCast
import Idealize.ShloMosaic.Lib.Pipeline.Value
import Idealize.ShloMosaic.Lib.ValueIdx
import Idealize.ShloMosaic.PureOps.Ideal.Laws

noncomputable section

namespace Cert.KernelIdeal.Pool

open Cert.KernelIdeal Cert.KernelIdeal.Gen Cert.PoolSpec
open Idealize.ShloMosaic Idealize.ShloMosaic.ValueIdx

/-- Inserting column `k` into the row index `g` gives `(g, k)`. -/
theorem lift_row (g : Fin 256) (k : Fin 128) : reduces_S256x128_S256.lift (ix1 g) k = ix2 g k :=
  funext fun a => Fin.ext (by match a with | ⟨0, _⟩ => rfl | ⟨1, _⟩ => rfl)

/-- A vector stood up as a column and broadcast over the rows reads, at `i`, the vector at `i`'s row. -/
theorem column_over_rows (u : FVec Ideal S256 .f32) :
    broadcastTo S256x128 (shapeCast S256x1 u shapeCasts_S256_S256x1) broadcasts_S256x1_S256x128 = fun i => u (ix1 (n := 256) (i 0)) := by
  funext i
  obtain ⟨g, q, rfl⟩ : ∃ (g : Fin 256) (q : Fin 128), i = ix2 g q := ⟨i 0, i 1, eq_ix2 i⟩
  rw [Cert.LibColBroadcast.broadcastTo_a1_ab_apply, Cert.LibColumnCast.shapeCast_a_a1_apply]

/-- The lane maximum of a [256,128] array from −∞ is each row's folded maximum. -/
theorem lane_max (X : FVec Ideal S256x128 .f32) :
    multiReduction .maximumf [1] S256 X 0xFF800000#32 reduces_S256x128_S256 (.inl rfl) rfl = fun j => rowMax X (j 0) := by
  funext j
  obtain ⟨g, rfl⟩ : ∃ g : Fin 256, j = ix1 g := ⟨j 0, eq_ix1 j⟩
  refine (Ideal.multiReduction_maximumf_single X 0xFF800000#32 reduces_S256x128_S256 (.inl rfl) rfl (ix1 g)).trans ?_
  show (Finset.univ : Finset (Fin 128)).fold max negInf (fun k => X (reduces_S256x128_S256.lift (ix1 g) k)) = rowMax X g
  unfold rowMax
  exact congrArg (fun f => (Finset.univ : Finset (Fin 128)).fold max negInf f) (funext fun k => congrArg X (lift_row g k))

/-- The lane sum of a [256,128] array is each row's sum. -/
theorem lane_sum (Y : FVec Ideal S256x128 .f32) :
    multiReduction .add [1] S256 Y 0x00000000#32 reduces_S256x128_S256 (.inl rfl) rfl
      = fun j => ∑ k : Fin 128, Y (ix2 (n0 := 256) (n1 := 128) (j 0) k) := by
  funext j
  obtain ⟨g, rfl⟩ : ∃ g : Fin 256, j = ix1 g := ⟨j 0, eq_ix1 j⟩
  refine (Ideal.multiReduction_add_single Y 0x00000000#32 reduces_S256x128_S256 (.inl rfl) rfl (ix1 g)).trans ?_
  show ∑ k : Fin 128, Y (reduces_S256x128_S256.lift (ix1 g) k) = ∑ k : Fin 128, Y (ix2 (n0 := 256) (n1 := 128) g k)
  exact Finset.sum_congr rfl fun k _ => congrArg Y (lift_row g k)

/-- The clamped counts, broadcast over the rows, under the sums: the pooled means. -/
theorem quotient_eq (sums : Vec Ideal S256x128 .f32) (cnt : FVec Ideal S256 .f32) :
    divf (shapeCast S256x128 sums shapeCasts_S256x128_S256x128)
        (broadcastTo S256x128 (maximumf (shapeCast S256x1 (shapeCast S256x1 cnt shapeCasts_S256_S256x1) shapeCasts_S256x1_S256x1)
          (broadcast S256x1 (Scalar.ofBits .f32 0x3F800000#32))) broadcasts_S256x1_S256x128)
      = pooled sums cnt := by
  funext i
  obtain ⟨g, q, rfl⟩ : ∃ (g : Fin 256) (q : Fin 128), i = ix2 g q := ⟨i 0, i 1, eq_ix2 i⟩
  rw [shapeCast_self, shapeCast_self, divf_apply, Cert.LibColBroadcast.broadcastTo_a1_ab_apply, maximumf_apply,
    Cert.LibColumnCast.shapeCast_a_a1_apply, broadcast_apply]
  rfl

/-- The body's two keepdims steps, over any array: subtract each row's maximum … -/
def lessRowMax (Q : FVec Ideal S256x128 .f32) : FVec Ideal S256x128 .f32 :=
  subf Q (broadcastTo S256x128 (shapeCast S256x1
    (multiReduction .maximumf [1] S256 Q 0xFF800000#32 reduces_S256x128_S256 (.inl rfl) rfl) shapeCasts_S256_S256x1) broadcasts_S256x1_S256x128)

/-- … and subtract the logarithm of each row's sum of exponentials. -/
def lessLogSumExp (Y : FVec Ideal S256x128 .f32) : FVec Ideal S256x128 .f32 :=
  subf Y (broadcastTo S256x128 (log (shapeCast S256x1
    (multiReduction .add [1] S256 (exp Y) 0x00000000#32 reduces_S256x128_S256 (.inl rfl) rfl) shapeCasts_S256_S256x1)) broadcasts_S256x1_S256x128)

/-- The body's stored value is those two steps after the quotient (the printed sequence of values, substituted). -/
theorem stored_shape (cnt2 : Vec Ideal S256x1 .f32) (sums : Vec Ideal S256x128 .f32) :
    k1_pay1 (F := Ideal) cnt2 sums
      = lessLogSumExp (lessRowMax (divf (shapeCast S256x128 sums shapeCasts_S256x128_S256x128)
          (broadcastTo S256x128 (maximumf (shapeCast S256x1 cnt2 shapeCasts_S256x1_S256x1)
            (broadcast S256x1 (Scalar.ofBits .f32 0x3F800000#32))) broadcasts_S256x1_S256x128))) := rfl

theorem lessRowMax_eq (Q : FVec Ideal S256x128 .f32) : lessRowMax Q = shifted Q := by
  unfold lessRowMax
  rw [lane_max, column_over_rows]
  rfl

theorem lessLogSumExp_eq (Y : FVec Ideal S256x128 .f32) : lessLogSumExp Y = fun i => Y i - logSumExp Y (i 0) := by
  unfold lessLogSumExp
  rw [lane_sum]
  have hl : log (shapeCast S256x1 (fun j : S256.Idx => ∑ k : Fin 128, exp Y (ix2 (n0 := 256) (n1 := 128) (j 0) k)) shapeCasts_S256_S256x1)
      = shapeCast S256x1 (fun j : S256.Idx => logSumExp Y (j 0)) shapeCasts_S256_S256x1 := rfl
  rw [hl, column_over_rows]
  rfl

/-- THE BODY'S STORED VALUE is the pooled log-softmax of the sums and the counts. -/
theorem stored_eq (sums : Vec Ideal S256x128 .f32) (cnt : FVec Ideal S256 .f32) :
    k1_pay1 (F := Ideal) (shapeCast S256x1 cnt shapeCasts_S256_S256x1) sums = logSoftmax (pooled sums cnt) := by
  rw [stored_shape, quotient_eq, lessRowMax_eq, lessLogSumExp_eq]
  rfl

end Cert.KernelIdeal.Pool

end
-- ==== Proof.PoolRef.lean ====
/-
  The reference's last stages are the pooled log-softmax of its own sums and counts stages. jnp's log_softmax takes each
  row's maximum by a reduce from −∞ and then once more against −∞ (a maximum that changes nothing, since the fold already
  starts there), and its sum from 0; its keepdims broadcasts read a row's value at every column.
-/
import proofs.«149216_j64768106823756_1_alg».proof.Proof.RefReadPatched
import proofs.«149216_j64768106823756_1_alg».proof.Proof.PoolSpec
import Idealize.ShloMosaic.PureOps.Ideal.Laws

noncomputable section

namespace Cert.ReferenceIdeal.PoolRef

open Cert.ReferenceIdeal Cert.ReferenceIdeal.Gen Cert.ReferenceIdeal.ReadP Cert.PoolSpec
open Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal))

/-- The quotient stage: the sums over the counts clamped at one, the counts' vector read at the element's row. -/
theorem quotient_eq : val_main_v74 (F := Ideal) x0 x1 x2 x3 x4
    = pooled (val_main_v65 (F := Ideal) x0 x1 x2 x3 x4) (val_main_v69 (F := Ideal) x2) := by
  funext i
  obtain ⟨g, q, rfl⟩ : ∃ (g : Fin 256) (q : Fin 128), i = ix2 g q := ⟨i 0, i 1, eq_ix2 i⟩
  rw [val_main_v74_apply, val_main_v73_apply, val_main_v72_apply, val_main_v71_apply, val_main_v70_apply, val_main_cst_16_apply]
  have e : idx_main_v72 (idx_main_v73 (ix2 g q)) = ix1 g := funext fun a => Fin.ext (by match a with | ⟨0, _⟩ => rfl)
  rw [e]
  rfl

/-- The row maximum, broadcast over the row: the host's reduce from −∞, then the maximum with −∞ that changes nothing. -/
theorem row_max_eq : val_main_call2_v4 (F := Ideal) x0 x1 x2 x3 x4
    = fun i => rowMax (val_main_v74 (F := Ideal) x0 x1 x2 x3 x4) (i 0) := by
  funext i
  obtain ⟨g, q, rfl⟩ : ∃ (g : Fin 256) (q : Fin 128), i = ix2 g q := ⟨i 0, i 1, eq_ix2 i⟩
  rw [val_main_call2_v4_apply, val_main_call2_v3_apply, val_main_call2_v2_apply, val_main_call2_v1_apply, val_main_call2_cst_0_apply]
  have e : idx_main_call2_v3 (idx_main_call2_v4 (ix2 g q)) = ix1 g := funext fun a => Fin.ext (by match a with | ⟨0, _⟩ => rfl)
  rw [e]
  unfold val_main_call2_v0
  generalize val_main_v74 (F := Ideal) x0 x1 x2 x3 x4 = X
  have hr : S256x128.Reduces [1] S256 := by decide
  have hf : Host.reduce (max : EReal → EReal → EReal) X (val_main_call2_cst (F := Ideal)) reducesTo_S256x128_S256_d1 h_S_ (ix1 g) = rowMax X g := by
    rw [Host.reduce_eq_fold_single max X _ reducesTo_S256x128_S256_d1 hr h_S_ (ix1 g)]
    unfold rowMax
    show (Finset.univ : Finset (Fin 128)).fold max negInf (fun k => X (hr.lift (ix1 g) k)) = _
    have hl : ∀ k : Fin 128, hr.lift (ix1 g) k = ix2 g k := fun k =>
      funext fun a => Fin.ext (by match a with | ⟨0, _⟩ => rfl | ⟨1, _⟩ => rfl)
    exact congrArg (fun f => (Finset.univ : Finset (Fin 128)).fold max negInf f) (funext fun k => congrArg X (hl k))
  show max negInf (Host.reduce (max : EReal → EReal → EReal) X (val_main_call2_cst (F := Ideal)) reducesTo_S256x128_S256_d1 h_S_ (ix1 g)) = _
  rw [hf]
  exact max_eq_right (by unfold rowMax; exact (Finset.le_fold_max _).mpr (Or.inl le_rfl))

/-- The shifted stage: each pooled mean less its row's maximum. -/
theorem shifted_eq : val_main_call2_v5 (F := Ideal) x0 x1 x2 x3 x4 = shifted (val_main_v74 (F := Ideal) x0 x1 x2 x3 x4) := by
  funext i
  rw [val_main_call2_v5_apply, row_max_eq]
  rfl

/-- The logarithm of the row's sum of exponentials, broadcast over the row: the host's sum from 0. -/
theorem log_sum_eq : val_main_call2_v10 (F := Ideal) x0 x1 x2 x3 x4
    = fun i => logSumExp (val_main_call2_v5 (F := Ideal) x0 x1 x2 x3 x4) (i 0) := by
  funext i
  obtain ⟨g, q, rfl⟩ : ∃ (g : Fin 256) (q : Fin 128), i = ix2 g q := ⟨i 0, i 1, eq_ix2 i⟩
  rw [val_main_call2_v10_apply, val_main_call2_v9_apply, val_main_call2_v8_apply, val_main_call2_v7_apply, val_main_call2_cst_1_apply]
  have e : idx_main_call2_v8 (idx_main_call2_v10 (ix2 g q)) = ix1 g := funext fun a => Fin.ext (by match a with | ⟨0, _⟩ => rfl)
  rw [e]
  have ek : ∀ k : Fin 128, idx_main_call2_v7 (ix1 g) k = ix2 g k := fun k =>
    funext fun a => Fin.ext (by match a with | ⟨0, _⟩ => rfl | ⟨1, _⟩ => rfl)
  simp only [val_main_call2_v6_apply, ek]
  generalize val_main_call2_v5 (F := Ideal) x0 x1 x2 x3 x4 = Y
  rw [Ideal.hostUnary_log_def, Ideal.ofBits_def, Ideal.ofBits_zero_f32, zero_add]
  rfl

/-- THE REFERENCE'S RESULT is the pooled log-softmax of its sums and counts stages. -/
theorem result_eq : val_main_v75 (F := Ideal) x0 x1 x2 x3 x4
    = logSoftmax (pooled (val_main_v65 (F := Ideal) x0 x1 x2 x3 x4) (val_main_v69 (F := Ideal) x2)) := by
  funext i
  rw [val_main_v75_apply, log_sum_eq, shifted_eq, quotient_eq]
  rfl

end Cert.ReferenceIdeal.PoolRef

end
-- ==== Proof.DenseBlock.lean ====
/-
  The first region's body at one element. A block of 10000 rows `x` of the propagated features, the whole weight matrix
  `w` and the bias row `b` go in; at the exact values the two changes of float format are the identity, the matrix product
  into the zero accumulator is the plain sum over the contracted axis, and the zero the result is clamped at is 0. So at
  row `p`, column `q` of the block the body stores  max (∑ₖ x(p,k) · w(k,q) + b(0,q)) 0.
-/
import proofs.«149216_j64768106823756_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense

open Cert.KernelIdeal Cert.KernelIdeal.Gen
open Idealize.ShloMosaic Idealize.ShloMosaic.ValueIdx

/-- The block product's dimension record: rows by the contracted axis, times the contracted axis by columns. -/
abbrev D := dot_S10000x128_S128x128_S10000x128_1_0_0_1_n_n

/-- The left operand's index at output `i`, contraction `r`: row `i 0` … -/
theorem lhs_row (i : S10000x128.Idx) (r : D.contr.Idx) : (D.lhsIdx i r 0).val = (i 0).val := by
  unfold DotDims.lhsIdx
  rw [dif_neg (show ¬(0 : Fin S10000x128.rank) ∈ D.lhsBatch by decide), dif_pos (show (0 : Fin S10000x128.rank) ∈ D.lhsNonContracting by decide)]
  rfl
/-- … and column the contraction coordinate. -/
theorem lhs_col (i : S10000x128.Idx) (r : D.contr.Idx) : (D.lhsIdx i r 1).val = (r ⟨0, by decide⟩).val :=
  D.lhsIdx_val_of_single rfl i r
/-- The right operand's index: row the contraction coordinate … -/
theorem rhs_row (i : S10000x128.Idx) (r : D.contr.Idx) : (D.rhsIdx i r 0).val = (r ⟨0, by decide⟩).val :=
  D.rhsIdx_val_of_single rfl i r
/-- … and column `i 1`. -/
theorem rhs_col (i : S10000x128.Idx) (r : D.contr.Idx) : (D.rhsIdx i r 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The block's matrix product into the zero accumulator, at `(p, q)`: the sum over `k` of `x(p,k) · w(k,q)`. -/
theorem product_apply (x : FVec Ideal S10000x128 .bf16) (w : FVec Ideal S128x128 .bf16) (p : Fin 10000) (q : Fin 128) :
    matmul D none x w (constant S10000x128 .f32 0x00000000#32) (ix2 p q) = ∑ k : Fin 128, x (ix2 p k) * w (ix2 k q) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 k q := funext fun a => Fin.ext (by
    match a with
    | ⟨0, _⟩ => exact (rhs_row _ _).trans hk
    | ⟨1, _⟩ => exact rhs_col _ _)
  rw [el, er]

/-- THE BODY AT ONE ELEMENT: relu of the row's product with the weights plus the bias. -/
theorem stored_apply (x : Vec Ideal S10000x128 .f32) (w : Vec Ideal S128x128 .f32) (b : Vec Ideal S1x128 .f32) (p : Fin 10000) (q : Fin 128) :
    k0_pay1 (F := Ideal) x w b (ix2 p q) = max ((∑ k : Fin 128, x (ix2 p k) * w (ix2 k q)) + b (ix2 (0 : Fin 1) q)) 0 := by
  unfold k0_pay1
  rw [shapeCast_self, shapeCast_self, maximumf_apply, addf_apply, product_apply, broadcastTo_1b_ab_apply, broadcast_apply]
  show max _ (Ideal.ofBits .f32 0x00000000#32) = _
  rw [Ideal.ofBits_zero_f32]
  rfl

end Cert.KernelIdeal.Dense

end
-- ==== Proof.DenseArray.lean ====
/-
  The first region's result array, whole. The grid has ten points; point `t` reads rows `10000·t … 10000·t + 9999` of the
  propagated features, the whole weight matrix and the bias row, and writes the same rows of the result. A row of a matrix
  product depends on that row of the left factor only, so every block written back is the restriction of ONE function of
  the three arrays as the region finds them:
      affineRelu h w b (r, q) = max (∑ₖ h(r,k) · w(k,q) + b(0,q)) 0,
  and the ten blocks tile the 100000 rows, so the array ends holding it. At the exact values, at any entry contents `V`.
-/
import proofs.«149216_j64768106823756_1_alg».proof.Proof.Gen.KernelIdeal.Frame
import proofs.«149216_j64768106823756_1_alg».proof.Proof.DenseBlock
import Idealize.ShloMosaic.Lib.Pipeline.Value

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

/-- relu (h · w + b), element by element over the whole [100000,128] array. -/
def affineRelu (h : S100000x128.Idx → EReal) (w : S128x128.Idx → EReal) (b : S1x128.Idx → EReal) : S100000x128.Idx → EReal :=
  fun i => max ((∑ k : Fin 128, h (ix2 (n0 := 100000) (n1 := 128) (i 0) k) * w (ix2 (n0 := 128) (n1 := 128) k (i 1)))
    + b (ix2 (n0 := 1) (n1 := 128) (0 : Fin 1) (i 1))) 0

variable (V : (c : Dev nD) → (b : Ref sig .tc) → Buf (Elt Ideal) ((c : Thread nD τ).loc b))

theorem zeros : (![0, 0] : Fin 2 → Nat) = fun _ => 0 := funext fun a => by fin_cases a <;> rfl

/-- The printed index maps, decided over the ten points: the features' window moves down with the result's, ten blocks
    of rows in all; the weights' and the bias' windows stay at their one block; nothing moves along the columns. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every one of the ten row blocks is some point's. -/
theorem index_onto : ∀ q0 : Fin 10, ∃ t : Fin cfg0.N, win0_3.index t = ![q0.val, 0] :=
  (by decide +kernel : ∀ q0 : Fin 10, ∃ t : Fin grid0.N, win0_3.index t = ![q0.val, 0])

/-- WHAT POINT `t` WRITES BACK is block `t` of `affineRelu` of the three arrays as the region finds them. -/
theorem flushed_rows (c : Dev nD) (t : Fin cfg0.N) :
    (dat0 V c).flushed 3 t
      = ((cfg0.win 3).blk t).view.read (Elt Ideal) (affineRelu (V c main_v57) (V c main_arg3) (V c main_v58)) := by
  show (cfg0.win 3).cut (grid0.coords t) ((dat0 V c).after 3 t) = _
  rw [after0_3]
  unfold out0_3
  rw [View.canon_unit_zero zeros]
  simp only [View.ld_unit_zero (S := S10000x128) zeros, View.ld_unit_zero (S := S128x128) zeros, View.ld_unit_zero (S := S1x128) zeros]
  obtain ⟨e0, e1, e2, e3, e4, e5, e6, e7⟩ := index_facts t
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (iblk0 V c 2 t) (ix2 p q)
    = affineRelu (V c main_v57) (V c main_arg3) (V c main_v58) (((cfg0.win 3).blk t).view.emb (ix2 p q))
  rw [stored_apply]
  unfold affineRelu
  -- the three reads, element by element: each input block is its array read where the result's rectangle says
  have hx : ∀ k : Fin 128, (iblk0 V c 0 t : S10000x128.Idx → EReal) (ix2 p k)
      = V c main_v57 (ix2 (n0 := 100000) (n1 := 128) ((((cfg0.win 3).blk t).view.emb (ix2 p q)) 0) k) := fun k => by
    show V c main_v57 (((cfg0.win 0).blk t).view.emb (ix2 p k)) = _
    refine congrArg (V c main_v57) (funext fun a => Fin.ext ?_)
    match a with
    | ⟨0, _⟩ => show win0_0.index t (0 : Fin 2) * 10000 + 1 * p.val = win0_3.index t (0 : Fin 2) * 10000 + 1 * p.val; rw [e0]
    | ⟨1, _⟩ => show win0_0.index t (1 : Fin 2) * 128 + 1 * k.val = k.val; rw [e1]; omega
  have hw : ∀ k : Fin 128, (iblk0 V c 1 t : S128x128.Idx → EReal) (ix2 k q)
      = V c main_arg3 (ix2 (n0 := 128) (n1 := 128) k ((((cfg0.win 3).blk t).view.emb (ix2 p q)) 1)) := fun k => by
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = win0_3.index t (1 : Fin 2) * 128 + 1 * q.val; rw [e3, e7]
  have hb : (iblk0 V c 2 t : S1x128.Idx → EReal) (ix2 (0 : Fin 1) q)
      = V c main_v58 (ix2 (n0 := 1) (n1 := 128) (0 : Fin 1) ((((cfg0.win 3).blk t).view.emb (ix2 p q)) 1)) := by
    show V c main_v58 (((cfg0.win 2).blk t).view.emb (ix2 (0 : Fin 1) q)) = _
    refine congrArg (V c main_v58) (funext fun a => Fin.ext ?_)
    match a with
    | ⟨0, _⟩ => show win0_2.index t (0 : Fin 2) * 1 + 1 * 0 = 0; rw [e4]
    | ⟨1, _⟩ => show win0_2.index t (1 : Fin 2) * 128 + 1 * q.val = win0_3.index t (1 : Fin 2) * 128 + 1 * q.val; rw [e5, e7]
  rw [hb]
  exact congrArg (fun s => max (s + _) 0) (Finset.sum_congr rfl fun k _ => by rw [hx k, hw k])

/-- An index of the array is in point `t`'s block iff each coordinate is in the block's range on its axis. -/
theorem mem_rows (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v59).slice (win0_3.rect t)).set ↔ _
  rw [View.set_slice_whole, Rect.mem_set_unit]
  exact Iff.rfl

/-- Row `r` lies in the block of the point whose row-block index is `r / 10000`. -/
theorem rows_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := index_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_rows]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- THE RESULT ARRAY after the region: relu (h · w + b) of the three arrays as the region found them. -/
theorem result_array (c : Dev nD) :
    (dat0 V c).arrAt 3 cfg0.N = affineRelu (V c main_v57) (V c main_arg3) (V c main_v58) :=
  (dat0 V c).arrAt_eq_of_cover 3 (affineRelu (V c main_v57) (V c main_arg3) (V c main_v58))
    (fun t _ => flushed_rows V c t) (rows_cover)

end Cert.KernelIdeal.Dense

end
-- ==== Proof.DenseRef.lean ====
/-
  The reference's dense stage is the same function of the same three arrays as the first region's result:
  `jax.nn.relu (h @ W + b)` at row `r`, column `q` is  max (∑ₖ h(r,k) · W(k,q) + b(q)) 0,  the host's dot_general the plain sum
  over the contracted axis at the exact values, the bias vector read at the column (the kernel reads it as a [1,128] row).
-/
import proofs.«149216_j64768106823756_1_alg».proof.Proof.RefReadPatched
import proofs.«149216_j64768106823756_1_alg».proof.Proof.DenseArray
import Idealize.ShloMosaic.Lib.ValueLayout
import Idealize.ShloMosaic.PureOps.Ideal.Laws

noncomputable section

namespace Cert.ReferenceIdeal.DenseRef

open Cert.ReferenceIdeal Cert.ReferenceIdeal.Gen Cert.ReferenceIdeal.ReadP
open Idealize.ShloMosaic Idealize.ShloMosaic.ValueIdx

variable (x0 : (⟨S100000x128, .f32⟩ : BufTy).Contents (Elt Ideal)) (x1 : (⟨S2x1600000, .i32⟩ : BufTy).Contents (Elt Ideal))
  (x3 : (⟨S128x128, .f32⟩ : BufTy).Contents (Elt Ideal)) (x4 : (⟨S128, .f32⟩ : BufTy).Contents (Elt Ideal))

/-- THE REFERENCE'S RELU STAGE is `affineRelu` of its propagated-features stage, the weights, and the bias as a row. -/
theorem relu_affine_eq : val_main_v62 (F := Ideal) x0 x1 x3 x4
    = Cert.KernelIdeal.Dense.affineRelu (val_main_v57 (F := Ideal) x0 x1) x3
        (shapeCast Cert.KernelIdeal.S1x128 x4 Cert.KernelIdeal.Gen.shapeCasts_S128_S1x128) := by
  funext i
  obtain ⟨r, q, rfl⟩ : ∃ (r : Fin 100000) (q : Fin 128), i = ix2 r q := ⟨i 0, i 1, eq_ix2 i⟩
  rw [val_main_v62_apply, val_main_v61_apply, val_main_v58_apply, val_main_v60_apply, val_main_v59_apply,
    val_main_call1_v0_apply, val_main_call1_cst_apply]
  have el : ∀ k : Fin 128, lidx_main_v58 (ix2 r q) k = ix2 r k := fun k =>
    funext fun a => Fin.ext (by match a with | ⟨0, _⟩ => rfl | ⟨1, _⟩ => rfl)
  have er : ∀ k : Fin 128, ridx_main_v58 (ix2 r q) k = ix2 k q := fun k =>
    funext fun a => Fin.ext (by match a with | ⟨0, _⟩ => rfl | ⟨1, _⟩ => rfl)
  have eb : idx_main_v59 (idx_main_v60 (ix2 r q)) = ix1 q := funext fun a => Fin.ext (by match a with | ⟨0, _⟩ => rfl)
  rw [eb]
  have hb : shapeCast Cert.KernelIdeal.S1x128 x4 Cert.KernelIdeal.Gen.shapeCasts_S128_S1x128 (ix2 (0 : Fin 1) q) = x4 (ix1 q) :=
    shapeCast_a_1a_apply x4 _ 0 q
  unfold Cert.KernelIdeal.Dense.affineRelu
  show max ((∑ k : Fin 128, val_main_v57 (F := Ideal) x0 x1 (lidx_main_v58 (ix2 r q) k) * x3 (ridx_main_v58 (ix2 r q) k)) + x4 (ix1 q))
      (Ideal.ofBits .f32 0x00000000#32)
    = max ((∑ k : Fin 128, val_main_v57 (F := Ideal) x0 x1 (ix2 r k) * x3 (ix2 k q))
        + shapeCast Cert.KernelIdeal.S1x128 x4 Cert.KernelIdeal.Gen.shapeCasts_S128_S1x128 (ix2 (0 : Fin 1) q)) 0
  rw [hb, Ideal.ofBits_zero_f32]
  exact congrArg (fun s => max (s + x4 (ix1 q)) 0) (Finset.sum_congr rfl fun k _ => by rw [el k, er k])

end Cert.ReferenceIdeal.DenseRef

end
-- ==== Proof.HostReads.lean ====
/-
  What the two regions find in their input buffers. Before the first region the host has propagated the features over the
  graph (the gcn normalisation and two gather / scatter-add hops: 57 operations, the SAME operations in the same order as
  the reference's first 57) and laid the bias out as a row; between the regions it sums the first region's rows per graph
  and counts each graph's rows, and stands the counts up as a column. Each read is the segment fold `Gen.WK` at one
  buffer, opened by the library's `after_results`. The propagated features are stated as the reference's own stage
  function of the two arguments they depend on, so that nobody has to write the 57 operations down.
-/
import proofs.«149216_j64768106823756_1_alg».proof.Proof.Gen.KernelIdeal.Frame
import Idealize.ShloMosaic.Lib.StableHlo.Run

set_option maxRecDepth 16384

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry -/

/-- The weights are the argument, untouched. -/
theorem weights_at_entry (c : Dev nD) : (V3 m ρ c main_arg3 : S128x128.Idx → Elt F .f32) = m ((c : Thread nD τ).loc main_arg3) := by
  show StableHlo.after hostOps0_2 (StableHlo.after hostOps0_1 (StableHlo.after hostOps0 (W0 m ρ c))) (Proc.devRef .tc main_arg3) = _
  after_results <;> rfl

/-- The bias row is the bias vector laid down as a [1,128] row. -/
theorem bias_at_entry (c : Dev nD) : (V3 m ρ c main_v58 : S1x128.Idx → Elt F .f32)
    = shapeCast S1x128 (m ((c : Thread nD τ).loc main_arg4)) shapeCasts_S128_S1x128 := by
  show StableHlo.after hostOps0_2 (StableHlo.after hostOps0_1 (StableHlo.after hostOps0 (W0 m ρ c))) (Proc.devRef .tc main_v58) = _
  after_results <;> rfl

/-! ## Between the regions -/

/-- The graph ids are still the argument at the first region's exit (no window of the region is on them). -/
theorem ids_at_exit (c : Dev nD) : (W4 m ρ c (Proc.devRef .tc main_arg2) : S100000.Idx → Elt F .i32) = m ((c : Thread nD τ).loc main_arg2) := by
  refine (W4_of_ne m ρ c main_arg2 (by decide)).trans ?_
  show StableHlo.after hostOps0_2 (StableHlo.after hostOps0_1 (StableHlo.after hostOps0 (W0 m ρ c))) (Proc.devRef .tc main_arg2) = _
  after_results <;> rfl

/-- The per-graph sums: the first region's rows scatter-added by graph id onto zeros. -/
theorem sums_at_entry (c : Dev nD) : (V5 m ρ c main_v62 : S256x128.Idx → Elt F .f32)
    = Host.scatterAdd scatter_S256x128_S100000x1_S100000x128_1_0_0_1
        (broadcastInDim S256x128 ![] bcast_S_S256x128 (constant (F := F) S_ .f32 0x00000000#32))
        (broadcastInDim S100000x1 ![0] bcast_S100000_S100000x1_0 (W4 m ρ c (Proc.devRef .tc main_arg2)))
        (W4 m ρ c (Proc.devRef .tc main_v59)) := by
  show StableHlo.after hostOps1 (W4 m ρ c) (Proc.devRef .tc main_v62) = _
  after_results <;> rfl

/-- The per-graph counts, as a column: ones scatter-added by graph id onto zeros, the [256] vector stood up as [256,1]. -/
theorem counts_at_entry (c : Dev nD) : (V5 m ρ c main_v67 : S256x1.Idx → Elt F .f32)
    = shapeCast S256x1 (Host.scatterAdd scatter_S256_S100000x1_S100000_n_0_0_1
        (broadcastInDim S256 ![] bcast_S_S256 (constant (F := F) S_ .f32 0x00000000#32))
        (broadcastInDim S100000x1 ![0] bcast_S100000_S100000x1_0 (W4 m ρ c (Proc.devRef .tc main_arg2)))
        (broadcastInDim S100000 ![] bcast_S_S100000 (constant (F := F) S_ .f32 0x3F800000#32))) shapeCasts_S256_S256x1 := by
  show StableHlo.after hostOps1 (W4 m ρ c) (Proc.devRef .tc main_v67) = _
  after_results <;> rfl

end Cert.KernelIdeal.HostReads

end
-- ==== Proof.FeaturesRead.lean ====
/-
  The propagated features the first region is entered with. Both programs compute them on the host by the SAME 57
  operations in the same order (the self-loops appended to the edge list, the degrees, the symmetric gcn normalisation,
  and two hops of gather, scale and scatter-add), so the kernel program's fold at that buffer is the reference's own 57th
  stage function of the features and the edge list: nobody has to write the 57 operations down. The intermediate results
  have several consumers each (the source and destination lists feed both hops), so the fold is opened by the library's
  one-pass reader, which visits each shared subterm once.
-/
import proofs.«149216_j64768106823756_1_alg».proof.Proof.Gen.KernelIdeal.Frame
import proofs.«149216_j64768106823756_1_alg».proof.Proof.RefReadPatched
import Idealize.ShloMosaic.Lib.StableHlo.Run

set_option maxRecDepth 65536

noncomputable section

namespace Cert.KernelIdeal.HostReads

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 40000000 in
/-- The propagated features are the reference's 57th stage of the features and the edge list. -/
theorem features_at_entry (c : Dev nD) : (V3 m ρ c main_v57 : S100000x128.Idx → Elt F .f32)
    = Cert.ReferenceIdeal.ReadP.val_main_v57 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v57) = _
  after_results_simp <;> rfl

end Cert.KernelIdeal.HostReads

end
-- ==== Proof.Bridge.lean ====
/-
  The kernel program's result, read back to the arguments. Walking the segment fold from the result buffer:
  the second region leaves the pooled log-softmax of the per-graph sums and counts it was entered with; those are the
  host's scatter-adds, by graph id, of the first region's rows and of ones; the first region leaves relu (h · W + b) of the
  propagated features h, the weights and the bias; and h is the reference's own 57th stage. Each piece has its twin on the
  reference's side (its stages 62, 65, 69 and 75), so the kernel's result array IS the reference's last stage of the five
  arguments — the two programs differ only in where the dense product and the softmax run, and at the exact values a tiled
  product is the product and a lane reduction is the reduction.
-/
import proofs.«149216_j64768106823756_1_alg».proof.Proof.KernelRun
import proofs.«149216_j64768106823756_1_alg».proof.Proof.PoolArray
import proofs.«149216_j64768106823756_1_alg».proof.Proof.PoolKernel
import proofs.«149216_j64768106823756_1_alg».proof.Proof.PoolRef
import proofs.«149216_j64768106823756_1_alg».proof.Proof.DenseArray
import proofs.«149216_j64768106823756_1_alg».proof.Proof.DenseRef
import proofs.«149216_j64768106823756_1_alg».proof.Proof.HostReads
import proofs.«149216_j64768106823756_1_alg».proof.Proof.FeaturesRead

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- At the first region's exit its result array is the reference's relu stage of the features, the edge list, the weights
    and the bias. -/
theorem dense_at_exit (c : Dev nD) : (W4 m ρ c (Proc.devRef .tc main_v59) : S100000x128.Idx → EReal)
    = Cert.ReferenceIdeal.ReadP.val_main_v62 (F := Ideal) (m ((c : Thread nD τ).loc main_arg0)) (m ((c : Thread nD τ).loc main_arg1))
        (m ((c : Thread nD τ).loc main_arg3)) (m ((c : Thread nD τ).loc main_arg4)) := by
  refine (W4_arr m ρ c 3).trans ?_
  rw [Dense.result_array (V3 m ρ) c, HostReads.features_at_entry, HostReads.weights_at_entry, HostReads.bias_at_entry]
  exact (Cert.ReferenceIdeal.DenseRef.relu_affine_eq _ _ _ _).symm

/-- THE KERNEL'S RESULT ARRAY, at the last boundary, is the reference's last stage of the five arguments. -/
theorem result_value (c : Dev nD) : (W6 m ρ c (Proc.devRef .tc main_v68) : S256x128.Idx → EReal)
    = Cert.ReferenceIdeal.ReadP.val_main_v75 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W6_arr m ρ c 2).trans ?_
  rw [Pool.result_array (V5 m ρ) c, HostReads.counts_at_entry, HostReads.sums_at_entry, HostReads.ids_at_exit, dense_at_exit,
    Pool.stored_eq, Cert.ReferenceIdeal.PoolRef.result_eq]
  rfl

end Cert.KernelIdeal.Bridge

end
-- ==== Proof.lean ====
/- `Cert.Claim` for a two-layer graph pipeline: gcn-normalised propagation over the edges (two gather / scatter-add hops, on
   the host in BOTH programs, operation for operation), a dense layer relu (h · W + b), a mean pool per graph, and a row-wise
   log-softmax. The kernel runs the dense layer as a row-tiled TensorCore region (ten blocks of 10000 rows, bf16 operands into an
   f32 accumulator) and the divide + log-softmax as a second, one-block region; the reference runs both on the host.
   At the exact values the two changes of float format are the identity, a tiled matrix product into a zero accumulator and the
   host's dot_general are the same finite sum over the contracted axis, and a lane reduction and the host's reduce are the same
   fold; every other operation is spelt by the same exact function on both sides. So the two results are one function of the
   five arguments, and no law of arithmetic that needs finiteness is used: the precondition is never opened.
   The three frames: the two kernel programs' are the generated segment walks; the reference's is its run with the result
   dropped. `preserves` is `True` (the ideal pass rewrote nothing). `algebraic`: the kernel program's run with its result
   named (`Walk.run_named`), read back to the arguments (`Bridge.result_value`), against the reference's run. -/
import proofs.«149216_j64768106823756_1_alg».proof.Defs
import proofs.«149216_j64768106823756_1_alg».proof.Proof.Gen.Kernel
import proofs.«149216_j64768106823756_1_alg».proof.Proof.Gen.Kernel.Skeleton
import proofs.«149216_j64768106823756_1_alg».proof.Proof.Gen.Kernel.Launch
import proofs.«149216_j64768106823756_1_alg».proof.Proof.Gen.Kernel.Points
import proofs.«149216_j64768106823756_1_alg».proof.Proof.Gen.Kernel.Frame
import proofs.«149216_j64768106823756_1_alg».proof.Proof.Gen.KernelIdeal
import proofs.«149216_j64768106823756_1_alg».proof.Proof.Gen.KernelIdeal.Skeleton
import proofs.«149216_j64768106823756_1_alg».proof.Proof.Gen.KernelIdeal.Launch
import proofs.«149216_j64768106823756_1_alg».proof.Proof.Gen.KernelIdeal.Points
import proofs.«149216_j64768106823756_1_alg».proof.Proof.Gen.KernelIdeal.Frame
import proofs.«149216_j64768106823756_1_alg».proof.Proof.Gen.ReferenceIdeal
import proofs.«149216_j64768106823756_1_alg».proof.Proof.Gen.Pre_finite_inputs
import proofs.«149216_j64768106823756_1_alg».proof.Proof.RefRunPatched
import proofs.«149216_j64768106823756_1_alg».proof.Proof.RefReadPatched
import proofs.«149216_j64768106823756_1_alg».proof.Proof.KernelRun
import proofs.«149216_j64768106823756_1_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs end with the result array at the reference's last stage of the (agreeing) arguments. -/
theorem algebraic : Cert.algebraic_KernelIdeal_ReferenceIdeal := by
  intro m ρ m' ρ' _ hagree
  refine ⟨fun c => Cert.ReferenceIdeal.ReadP.val_main_v75 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Bridge.result_value m ρ c), (h c).2⟩)
      (Cert.KernelIdeal.Walk.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v75_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
